-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128 .f32) (main_arg6 : FVec F S128x16 .f32) (main_arg7 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x16 .f32) (main_arg7 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x256 : Shape := ⟨2, ![10000, 256]⟩
abbrev S10000x128 : Shape := ⟨2, ![10000, 128]⟩
abbrev S1700000x128 : Shape := ⟨2, ![1700000, 128]⟩
abbrev S1x128 : Shape := ⟨2, ![1, 128]⟩
abbrev S100000x16 : Shape := ⟨2, ![100000, 16]⟩
abbrev S10000x16 : Shape := ⟨2, ![10000, 16]⟩
abbrev S1700000x16 : Shape := ⟨2, ![1700000, 16]⟩
abbrev S1x16 : Shape := ⟨2, ![1, 16]⟩

abbrev nBuf : Space → Nat
  | .hbm => 107
  | .vmem => 30
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x256, .bf16⟩
  | .hbm, ⟨45, _⟩ => ⟨S256x128, .bf16⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .bf16⟩
  | .hbm, ⟨66, _⟩ => ⟨S128x128, .bf16⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .bf16⟩
  | .hbm, ⟨87, _⟩ => ⟨S128x16, .bf16⟩
  | .hbm, ⟨88, _⟩ => ⟨S100000x16, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x16, .f32⟩
  | .hbm, ⟨98, _⟩ => ⟨S1700000x1, .f32⟩
  | .hbm, ⟨99, _⟩ => ⟨S1700000x16, .f32⟩
  | .hbm, ⟨100, _⟩ => ⟨S1700000x16, .f32⟩
  | .hbm, ⟨101, _⟩ => ⟨S_, .f32⟩
  | .hbm, ⟨102, _⟩ => ⟨S100000x16, .f32⟩
  | .hbm, ⟨103, _⟩ => ⟨S1700000x1, .i32⟩
  | .hbm, ⟨104, _⟩ => ⟨S100000x16, .f32⟩
  | .hbm, ⟨105, _⟩ => ⟨S1x16, .f32⟩
  | .hbm, ⟨106, _⟩ => ⟨S100000x16, .f32⟩
  | .local _ .vmem, ⟨0, _⟩ => ⟨S10000x256, .bf16⟩
  | .local _ .vmem, ⟨1, _⟩ => ⟨S10000x256, .bf16⟩
  | .local _ .vmem, ⟨2, _⟩ => ⟨S256x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .bf16⟩
  | .local _ .vmem, ⟨11, _⟩ => ⟨S10000x128, .bf16⟩
  | .local _ .vmem, ⟨12, _⟩ => ⟨S128x128, .bf16⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .bf16⟩
  | .local _ .vmem, ⟨21, _⟩ => ⟨S10000x128, .bf16⟩
  | .local _ .vmem, ⟨22, _⟩ => ⟨S128x16, .bf16⟩
  | .local _ .vmem, ⟨23, _⟩ => ⟨S10000x16, .f32⟩
  | .local _ .vmem, ⟨24, _⟩ => ⟨S10000x16, .f32⟩
  | .local _ .vmem, ⟨25, _⟩ => ⟨S10000x16, .f32⟩
  | .local _ .vmem, ⟨26, _⟩ => ⟨S10000x16, .f32⟩
  | .local _ .vmem, ⟨27, _⟩ => ⟨S1x16, .f32⟩
  | .local _ .vmem, ⟨28, _⟩ => ⟨S10000x16, .f32⟩
  | .local _ .vmem, ⟨29, _⟩ => ⟨S10000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_11 : Ref sig .tc := ⟨.hbm, 89, rfl⟩
abbrev main_v68 : Ref sig .tc := ⟨.hbm, 90, rfl⟩
abbrev main_v69 : Ref sig .tc := ⟨.hbm, 91, rfl⟩
abbrev main_c_12 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_13 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x16 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x256_S256x128_S10000x128_1_0_0_1_n_n_wf : DotDims.WF S10000x256 S256x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  dot_S10000x128_S128x16_S10000x16_1_0_0_1_n_n_wf : DotDims.WF S10000x128 S128x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .bf16 = 32 ∨ (Rect.block (s := S100000x256) S10000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .bf16 = 32 ∨ (Rect.block (s := S100000x128) S10000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .bf16 = 32 ∨ (Rect.block (s := S100000x128) S10000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x16.size a ≤ S128x16.size a
  hwx4_1 : ∀ i : grid4.Coords, EltTy.bits .bf16 = 32 ∨ (Rect.block (s := S128x16) S128x16.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S100000x16.size a
  hwx4_2 : ∀ i : grid4.Coords, EltTy.bits .f32 = 32 ∨ (Rect.block (s := S100000x16) S10000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x16.size a ≤ S100000x16.size a
  hwx5_0 : ∀ i : grid5.Coords, EltTy.bits .f32 = 32 ∨ (Rect.block (s := S100000x16) S10000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x16.size a ≤ S100000x16.size a
  hwx5_2 : ∀ i : grid5.Coords, EltTy.bits .f32 = 32 ∨ (Rect.block (s := S100000x16) S10000x16.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_v29) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S128x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S10000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v80) S10000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S10000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 110
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S100000x16, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x16, .f32⟩
  | .hbm, ⟨100, _⟩ => ⟨S1700000x1, .f32⟩
  | .hbm, ⟨101, _⟩ => ⟨S1700000x16, .f32⟩
  | .hbm, ⟨102, _⟩ => ⟨S1700000x16, .f32⟩
  | .hbm, ⟨103, _⟩ => ⟨S_, .f32⟩
  | .hbm, ⟨104, _⟩ => ⟨S100000x16, .f32⟩
  | .hbm, ⟨105, _⟩ => ⟨S1700000x1, .i32⟩
  | .hbm, ⟨106, _⟩ => ⟨S100000x16, .f32⟩
  | .hbm, ⟨107, _⟩ => ⟨S1x16, .f32⟩
  | .hbm, ⟨108, _⟩ => ⟨S100000x16, .f32⟩
  | .hbm, ⟨109, _⟩ => ⟨S100000x16, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_c_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.NamedRun.lean ====
/-
  The idealized kernel's run with its result NAMED. @main is twelve segments — six stretches of host operations and six
  kernel regions — and the contents of the TensorCore's buffers at the twelve boundaries are a fold from the launch
  memory: a host stretch leaves every buffer at its operations' values of the contents before it, a region leaves its
  output array at what its ten write-backs leave and every other buffer as it was. Every weakly fair execution
  terminates with every unscoped buffer at the last boundary's contents; read at the result buffer and at the eight
  arguments, that is the statement below. What the last boundary holds at the result buffer is computed elsewhere.
-/
import proofs.«120182_j55765855371370_1_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the eight argument arrays as launched. -/
theorem run : θ_run defs (onTc (τ := τ) (main (F := F))) ⟨m, fun _ => 0, ρ⟩ (fun r => ∀ c : Dev nD,
      r.2.mem ((c.tc : Thread nD τ).loc main_v82) = W12 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v82 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.NamedRun

end
-- ==== Proof.Kept.lean ====
/-
  What the later layers read of the earlier ones' work. The edge lists (source and destination nodes, self-loops appended)
  and the per-edge normalising factors are computed once, by the first stretch of host operations, and read again by
  the aggregation of every layer; each layer's weights and bias are arguments read only when that layer is reached.
  No host operation in between and no kernel region writes any of these buffers — a host stretch writes only its own
  results, a region only its output array — so at the boundary where each is read it still holds what it held when
  first computed (or at launch).
-/
import proofs.«120182_j55765855371370_1_alg».proof.Proof.Gen.KernelIdeal.Frame

set_option maxRecDepth 16384

noncomputable section

namespace Cert.KernelIdeal.Kept

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- A stretch of host operations leaves a buffer none of its operations writes as it was: the buffer differs from every
    operation's result buffer. -/
macro "not_written_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- Region 0 does not write the edges' source nodes (with the self-loops appended). -/
theorem src_2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- Nor do the second stretch, region 1, the third stretch and region 2. -/
theorem src_6 (c : Dev nD) : W6 m ρ c (Proc.devRef .tc main_v3) = W2 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by not_written_by hostOps2
    _ = W3 m ρ c (Proc.devRef .tc main_v3) := W4_of_ne m ρ c main_v3 (by decide)
    _ = W2 m ρ c (Proc.devRef .tc main_v3) := by not_written_by hostOps1

/-- Nor do the fourth stretch, region 3, the fifth stretch and region 4. -/
theorem src_10 (c : Dev nD) : W10 m ρ c (Proc.devRef .tc main_v3) = W6 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by not_written_by hostOps4
    _ = W7 m ρ c (Proc.devRef .tc main_v3) := W8_of_ne m ρ c main_v3 (by decide)
    _ = W6 m ρ c (Proc.devRef .tc main_v3) := by not_written_by hostOps3

/-- Region 0 does not write the edges' destination nodes (with the self-loops appended). -/
theorem dst_2 (c : Dev nD) : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

/-- Nor do the second stretch, region 1, the third stretch and region 2. -/
theorem dst_6 (c : Dev nD) : W6 m ρ c (Proc.devRef .tc main_v6) = W2 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by not_written_by hostOps2
    _ = W3 m ρ c (Proc.devRef .tc main_v6) := W4_of_ne m ρ c main_v6 (by decide)
    _ = W2 m ρ c (Proc.devRef .tc main_v6) := by not_written_by hostOps1

/-- Nor do the fourth stretch, region 3, the fifth stretch and region 4. -/
theorem dst_10 (c : Dev nD) : W10 m ρ c (Proc.devRef .tc main_v6) = W6 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := by not_written_by hostOps4
    _ = W7 m ρ c (Proc.devRef .tc main_v6) := W8_of_ne m ρ c main_v6 (by decide)
    _ = W6 m ρ c (Proc.devRef .tc main_v6) := by not_written_by hostOps3

/-- Region 0 does not write the edges' normalising factors. -/
theorem norm_2 (c : Dev nD) : W2 m ρ c (Proc.devRef .tc main_v28) = W1 m ρ c (Proc.devRef .tc main_v28) :=
  calc W2 m ρ c (Proc.devRef .tc main_v28)
    _ = W1 m ρ c (Proc.devRef .tc main_v28) := W2_of_ne m ρ c main_v28 (by decide)

/-- Nor do the second stretch, region 1, the third stretch and region 2. -/
theorem norm_6 (c : Dev nD) : W6 m ρ c (Proc.devRef .tc main_v28) = W2 m ρ c (Proc.devRef .tc main_v28) :=
  calc W6 m ρ c (Proc.devRef .tc main_v28)
    _ = W5 m ρ c (Proc.devRef .tc main_v28) := W6_of_ne m ρ c main_v28 (by decide)
    _ = W4 m ρ c (Proc.devRef .tc main_v28) := by not_written_by hostOps2
    _ = W3 m ρ c (Proc.devRef .tc main_v28) := W4_of_ne m ρ c main_v28 (by decide)
    _ = W2 m ρ c (Proc.devRef .tc main_v28) := by not_written_by hostOps1

/-- Nor do the fourth stretch, region 3, the fifth stretch and region 4. -/
theorem norm_10 (c : Dev nD) : W10 m ρ c (Proc.devRef .tc main_v28) = W6 m ρ c (Proc.devRef .tc main_v28) :=
  calc W10 m ρ c (Proc.devRef .tc main_v28)
    _ = W9 m ρ c (Proc.devRef .tc main_v28) := W10_of_ne m ρ c main_v28 (by decide)
    _ = W8 m ρ c (Proc.devRef .tc main_v28) := by not_written_by hostOps4
    _ = W7 m ρ c (Proc.devRef .tc main_v28) := W8_of_ne m ρ c main_v28 (by decide)
    _ = W6 m ρ c (Proc.devRef .tc main_v28) := by not_written_by hostOps3

/-- Nothing before boundary 2 writes the first layer's bias: it is still the launch contents there. -/
theorem arg3_2 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by not_written_by hostOps0
    _ = m ((c : Thread nD τ).loc main_arg3) := rfl

/-- Nothing before boundary 4 writes the second layer's weights: it is still the launch contents there. -/
theorem arg4_4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by not_written_by hostOps1
    _ = W1 m ρ c (Proc.devRef .tc main_arg4) := W2_of_ne m ρ c main_arg4 (by decide)
    _ = W0 m ρ c (Proc.devRef .tc main_arg4) := by not_written_by hostOps0
    _ = m ((c : Thread nD τ).loc main_arg4) := rfl

/-- Nothing before boundary 6 writes the second layer's bias: it is still the launch contents there. -/
theorem arg5_6 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by not_written_by hostOps2
    _ = W3 m ρ c (Proc.devRef .tc main_arg5) := W4_of_ne m ρ c main_arg5 (by decide)
    _ = W2 m ρ c (Proc.devRef .tc main_arg5) := by not_written_by hostOps1
    _ = W1 m ρ c (Proc.devRef .tc main_arg5) := W2_of_ne m ρ c main_arg5 (by decide)
    _ = W0 m ρ c (Proc.devRef .tc main_arg5) := by not_written_by hostOps0
    _ = m ((c : Thread nD τ).loc main_arg5) := rfl

/-- Nothing before boundary 8 writes the third layer's weights: it is still the launch contents there. -/
theorem arg6_8 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := by not_written_by hostOps3
    _ = W5 m ρ c (Proc.devRef .tc main_arg6) := W6_of_ne m ρ c main_arg6 (by decide)
    _ = W4 m ρ c (Proc.devRef .tc main_arg6) := by not_written_by hostOps2
    _ = W3 m ρ c (Proc.devRef .tc main_arg6) := W4_of_ne m ρ c main_arg6 (by decide)
    _ = W2 m ρ c (Proc.devRef .tc main_arg6) := by not_written_by hostOps1
    _ = W1 m ρ c (Proc.devRef .tc main_arg6) := W2_of_ne m ρ c main_arg6 (by decide)
    _ = W0 m ρ c (Proc.devRef .tc main_arg6) := by not_written_by hostOps0
    _ = m ((c : Thread nD τ).loc main_arg6) := rfl

/-- Nothing before boundary 10 writes the third layer's bias: it is still the launch contents there. -/
theorem arg7_10 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := by not_written_by hostOps4
    _ = W7 m ρ c (Proc.devRef .tc main_arg7) := W8_of_ne m ρ c main_arg7 (by decide)
    _ = W6 m ρ c (Proc.devRef .tc main_arg7) := by not_written_by hostOps3
    _ = W5 m ρ c (Proc.devRef .tc main_arg7) := W6_of_ne m ρ c main_arg7 (by decide)
    _ = W4 m ρ c (Proc.devRef .tc main_arg7) := by not_written_by hostOps2
    _ = W3 m ρ c (Proc.devRef .tc main_arg7) := W4_of_ne m ρ c main_arg7 (by decide)
    _ = W2 m ρ c (Proc.devRef .tc main_arg7) := by not_written_by hostOps1
    _ = W1 m ρ c (Proc.devRef .tc main_arg7) := W2_of_ne m ρ c main_arg7 (by decide)
    _ = W0 m ρ c (Proc.devRef .tc main_arg7) := by not_written_by hostOps0
    _ = m ((c : Thread nD τ).loc main_arg7) := rfl

end Cert.KernelIdeal.Kept

end
-- ==== Proof.Dense1.lean ====
/-
  Layer 1, the dense product. The node features enter the kernel as ten blocks of 10000 rows; at grid point t the body
  multiplies rows 10000·t … 10000·t + 9999 of the activations (all 256 columns) by the whole 256×128 weight matrix
  into a zero accumulator, and writes the 10000×128 product back as rows 10000·t … of the output. Entry (r, q) of the
  output is therefore the sum over k < 256 of activation (r, k) times weight (k, q) — the same sum, term by term, as the
  one whole product of the two arrays; nothing is regrouped, so no finiteness is used. The ten blocks cover all 100000 rows.
  Everything is stated for ANY contents V of the buffers at the moment the region is entered.
-/
import proofs.«120182_j55765855371370_1_alg».proof.Proof.Gen.KernelIdeal.Frame
import proofs.«120182_j55765855371370_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Dense1

open Idealize.ShloMosaic Idealize.ShloMosaic.TcCoe Idealize.SL.Sem
open Cert.KernelIdeal Cert.KernelIdeal.Gen
open Idealize.ShloMosaic.Pipeline (Dat)

variable [hK : Cert.KernelIdeal.Facts] [hR : Cert.ReferenceIdeal.Facts]
variable (V : (c : Dev nD) → (b : Ref sig .tc) → Buf (Elt Ideal) ((c : Thread nD τ).loc b))

theorem zero_offsets : (![0, 0] : Fin 2 → Nat) = fun _ => 0 := funext fun a => by fin_cases a <;> rfl

/-- Row r, column k of a 10000×256 block, as an index of the block. -/
abbrev rowCol (j : S10000x128.Idx) (k : Fin 256) : S10000x256.Idx := fun a => match a with
  | ⟨0, _⟩ => ⟨(j 0).val, (j 0).isLt⟩
  | ⟨1, _⟩ => ⟨k.val, k.isLt⟩
/-- Row k, column q of the 256×128 weight matrix. -/
abbrev wRowCol (j : S10000x128.Idx) (k : Fin 256) : S256x128.Idx := fun a => match a with
  | ⟨0, _⟩ => ⟨k.val, k.isLt⟩
  | ⟨1, _⟩ => ⟨(j 1).val, (j 1).isLt⟩

theorem lhs_row (j : S10000x128.Idx) (q : dot_S10000x256_S256x128_S10000x128_1_0_0_1_n_n.contr.Idx) : (dot_S10000x256_S256x128_S10000x128_1_0_0_1_n_n.lhsIdx j q 0).val = (j 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl
theorem lhs_col (j : S10000x128.Idx) (q : dot_S10000x256_S256x128_S10000x128_1_0_0_1_n_n.contr.Idx) : (dot_S10000x256_S256x128_S10000x128_1_0_0_1_n_n.lhsIdx j q 1).val = (q ⟨0, by decide⟩).val :=
  dot_S10000x256_S256x128_S10000x128_1_0_0_1_n_n.lhsIdx_val_of_single rfl j q
theorem rhs_row (j : S10000x128.Idx) (q : dot_S10000x256_S256x128_S10000x128_1_0_0_1_n_n.contr.Idx) : (dot_S10000x256_S256x128_S10000x128_1_0_0_1_n_n.rhsIdx j q 0).val = (q ⟨0, by decide⟩).val :=
  dot_S10000x256_S256x128_S10000x128_1_0_0_1_n_n.rhsIdx_val_of_single rfl j q
theorem rhs_col (j : S10000x128.Idx) (q : dot_S10000x256_S256x128_S10000x128_1_0_0_1_n_n.contr.Idx) : (dot_S10000x256_S256x128_S10000x128_1_0_0_1_n_n.rhsIdx j q 1).val = (j 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl

/-- The body's product at entry (r, q) of the block: the sum over k of left (r, k) times right (k, q). -/
theorem product_apply (x0 : Vec Ideal S10000x256 .bf16) (x1 : Vec Ideal S256x128 .bf16) (j : S10000x128.Idx) :
    k0_pay1 (F := Ideal) x0 x1 j = ∑ k : Fin 256, x0 (rowCol j k) * x1 (wRowCol j k) := by
  unfold k0_pay1
  rw [shapeCast_self, shapeCast_self]
  simp only [matmul]
  rw [Ideal.matmul_constant_zero_apply, ← Equiv.sum_comp (ValueIdx.contrEquiv1 dot_S10000x256_S256x128_S10000x128_1_0_0_1_n_n 256 rfl rfl).symm]
  refine Finset.sum_congr rfl fun k _ => ?_
  have hk := ValueIdx.contrEquiv1_symm_val dot_S10000x256_S256x128_S10000x128_1_0_0_1_n_n 256 rfl rfl k
  have el : dot_S10000x256_S256x128_S10000x128_1_0_0_1_n_n.lhsIdx j ((ValueIdx.contrEquiv1 dot_S10000x256_S256x128_S10000x128_1_0_0_1_n_n 256 rfl rfl).symm k) = rowCol j k := funext fun a => Fin.ext (by
    match a with
    | ⟨0, _⟩ => exact lhs_row _ _
    | ⟨1, _⟩ => exact (lhs_col _ _).trans hk)
  have er : dot_S10000x256_S256x128_S10000x128_1_0_0_1_n_n.rhsIdx j ((ValueIdx.contrEquiv1 dot_S10000x256_S256x128_S10000x128_1_0_0_1_n_n 256 rfl rfl).symm k) = wRowCol j k := funext fun a => Fin.ext (by
    match a with
    | ⟨0, _⟩ => exact (rhs_row _ _).trans hk
    | ⟨1, _⟩ => exact rhs_col _ _)
  rw [el, er]

/-- The one whole product of the 100000×256 array by the 256×128 matrix, as the host computes it in one operation. -/
abbrev whole (X : FVec Ideal S100000x256 .bf16) (W : FVec Ideal S256x128 .bf16) : FVec Ideal S100000x128 .f32 :=
  Host.dotGeneral (F := Ideal) Cert.ReferenceIdeal.dot_S100000x256_S256x128_S100000x128_1_0_0_1_n_n none X W

/-- Entry (r, q) of the whole product is the sum over k of X (r, k) times W (k, q), whatever the two arrays are. -/
theorem whole_apply (X : FVec Ideal S100000x256 .bf16) (W : FVec Ideal S256x128 .bf16) (i : S100000x128.Idx) :
    whole X W i = ∑ k : Fin 256, X (Cert.ReferenceIdeal.Read.lidx_main_v29 i k) * W (Cert.ReferenceIdeal.Read.ridx_main_v29 i k) := by
  simp only [whole, Host.dotGeneral]
  rw [Ideal.dotGeneral_apply, ← Equiv.sum_comp (ValueIdx.contrEquiv1 Cert.ReferenceIdeal.dot_S100000x256_S256x128_S100000x128_1_0_0_1_n_n 256 rfl rfl).symm]
  refine Finset.sum_congr rfl fun k _ => ?_
  have hk := ValueIdx.contrEquiv1_symm_val Cert.ReferenceIdeal.dot_S100000x256_S256x128_S100000x128_1_0_0_1_n_n 256 rfl rfl k
  have el : Cert.ReferenceIdeal.dot_S100000x256_S256x128_S100000x128_1_0_0_1_n_n.lhsIdx i ((ValueIdx.contrEquiv1 Cert.ReferenceIdeal.dot_S100000x256_S256x128_S100000x128_1_0_0_1_n_n 256 rfl rfl).symm k) = Cert.ReferenceIdeal.Read.lidx_main_v29 i k := funext fun a => Fin.ext (by
    match a with
    | ⟨0, _⟩ => exact Cert.ReferenceIdeal.Read.lhs_main_v29_0 _ _
    | ⟨1, _⟩ => exact (Cert.ReferenceIdeal.Read.lhs_main_v29_1 _ _).trans hk)
  have er : Cert.ReferenceIdeal.dot_S100000x256_S256x128_S100000x128_1_0_0_1_n_n.rhsIdx i ((ValueIdx.contrEquiv1 Cert.ReferenceIdeal.dot_S100000x256_S256x128_S100000x128_1_0_0_1_n_n 256 rfl rfl).symm k) = Cert.ReferenceIdeal.Read.ridx_main_v29 i k := funext fun a => Fin.ext (by
    match a with
    | ⟨0, _⟩ => exact (Cert.ReferenceIdeal.Read.rhs_main_v29_0 _ _).trans hk
    | ⟨1, _⟩ => exact Cert.ReferenceIdeal.Read.rhs_main_v29_1 _ _)
  rw [el, er]

/-- One term of the sum depends only on which entries of the two arrays it reads. -/
theorem term_congr (X : FVec Ideal S100000x256 .bf16) (W : FVec Ideal S256x128 .bf16) (p p' : S100000x256.Idx) (q q' : S256x128.Idx)
    (hp : p = p') (hq : q = q') : X p * W q = X p' * W q' := by rw [hp, hq]

/-- Over the ten grid points: the activations' row-block is the output's row-block, every other block index is 0,
    and the output's row-block index is at most 9. -/
theorem block_indices : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row-blocks is some grid point's. -/
theorem block_onto : ∀ q0 : Fin 10, ∃ t : Fin cfg0.N, win0_2.index t = ![q0.val, 0] :=
  (by decide +kernel : ∀ q0 : Fin 10, ∃ t : Fin grid0.N, win0_2.index t = ![q0.val, 0])

/-- What grid point t writes back is block t of the whole product of the two arrays as the region finds them. -/
theorem written_block (c : Dev nD) (t : Fin cfg0.N) :
    (dat0 (F := Ideal) V c).flushed 2 t = ((cfg0.win 2).blk t).view.read (Elt Ideal)
      (whole (V c main_v29) (V c main_v30)) := by
  show (cfg0.win 2).cut (grid0.coords t) ((dat0 (F := Ideal) V c).after 2 t) = _
  rw [after0_2]
  unfold out0_2
  rw [View.canon_unit_zero zero_offsets]
  simp only [View.ld_unit_zero (S := S10000x256) zero_offsets, View.ld_unit_zero (S := S256x128) zero_offsets]
  obtain ⟨e0, e1, e2, e3, e4, e5⟩ := block_indices t
  refine funext fun (j : S10000x128.Idx) => ?_
  show k0_pay1 (F := Ideal) (iblk0 V c 0 t) (iblk0 V c 1 t) j
    = whole (V c main_v29) (V c main_v30) (((cfg0.win 2).blk t).view.emb j)
  refine (product_apply (iblk0 V c 0 t) (iblk0 V c 1 t) j).trans ?_
  refine Eq.trans ?_ (whole_apply _ _ _).symm
  refine Finset.sum_congr rfl fun k _ => ?_
  have h0 : ((cfg0.win 0).blk t).view.emb (rowCol j k) = Cert.ReferenceIdeal.Read.lidx_main_v29 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 256 + 1 * k.val = k.val; omega
  have h1 : ((cfg0.win 1).blk t).view.emb (wRowCol j k) = Cert.ReferenceIdeal.Read.ridx_main_v29 (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  exact term_congr (V c main_v29) (V c main_v30) _ _ _ _ h0 h1

/-- An index of the output array lies in point t's block iff each coordinate lies in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- Row r of the output lies in the block of the grid point whose row-block is r / 10000. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region the output array is the whole product of the two arrays the region found. -/
theorem product_array (c : Dev nD) :
    (dat0 (F := Ideal) V c).arrAt 2 cfg0.N = whole (V c main_v29) (V c main_v30) :=
  (dat0 (F := Ideal) V c).arrAt_eq_of_cover 2 _ (fun t _ => written_block V c t) covered

end Cert.KernelIdeal.Dense1

end
-- ==== Proof.Dense2.lean ====
/-
  Layer 2, the dense product. The node features enter the kernel as ten blocks of 10000 rows; at grid point t the body
  multiplies rows 10000·t … 10000·t + 9999 of the activations (all 128 columns) by the whole 128×128 weight matrix
  into a zero accumulator, and writes the 10000×128 product back as rows 10000·t … of the output. Entry (r, q) of the
  output is therefore the sum over k < 128 of activation (r, k) times weight (k, q) — the same sum, term by term, as the
  one whole product of the two arrays; nothing is regrouped, so no finiteness is used. The ten blocks cover all 100000 rows.
  Everything is stated for ANY contents V of the buffers at the moment the region is entered.
-/
import proofs.«120182_j55765855371370_1_alg».proof.Proof.Gen.KernelIdeal.Frame
import proofs.«120182_j55765855371370_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Dense2

open Idealize.ShloMosaic Idealize.ShloMosaic.TcCoe Idealize.SL.Sem
open Cert.KernelIdeal Cert.KernelIdeal.Gen
open Idealize.ShloMosaic.Pipeline (Dat)

variable [hK : Cert.KernelIdeal.Facts] [hR : Cert.ReferenceIdeal.Facts]
variable (V : (c : Dev nD) → (b : Ref sig .tc) → Buf (Elt Ideal) ((c : Thread nD τ).loc b))

theorem zero_offsets : (![0, 0] : Fin 2 → Nat) = fun _ => 0 := funext fun a => by fin_cases a <;> rfl

/-- Row r, column k of a 10000×128 block, as an index of the block. -/
abbrev rowCol (j : S10000x128.Idx) (k : Fin 128) : S10000x128.Idx := fun a => match a with
  | ⟨0, _⟩ => ⟨(j 0).val, (j 0).isLt⟩
  | ⟨1, _⟩ => ⟨k.val, k.isLt⟩
/-- Row k, column q of the 128×128 weight matrix. -/
abbrev wRowCol (j : S10000x128.Idx) (k : Fin 128) : S128x128.Idx := fun a => match a with
  | ⟨0, _⟩ => ⟨k.val, k.isLt⟩
  | ⟨1, _⟩ => ⟨(j 1).val, (j 1).isLt⟩

theorem lhs_row (j : S10000x128.Idx) (q : dot_S10000x128_S128x128_S10000x128_1_0_0_1_n_n.contr.Idx) : (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_col (j : S10000x128.Idx) (q : dot_S10000x128_S128x128_S10000x128_1_0_0_1_n_n.contr.Idx) : (dot_S10000x128_S128x128_S10000x128_1_0_0_1_n_n.lhsIdx j q 1).val = (q ⟨0, by decide⟩).val :=
  dot_S10000x128_S128x128_S10000x128_1_0_0_1_n_n.lhsIdx_val_of_single rfl j q
theorem rhs_row (j : S10000x128.Idx) (q : dot_S10000x128_S128x128_S10000x128_1_0_0_1_n_n.contr.Idx) : (dot_S10000x128_S128x128_S10000x128_1_0_0_1_n_n.rhsIdx j q 0).val = (q ⟨0, by decide⟩).val :=
  dot_S10000x128_S128x128_S10000x128_1_0_0_1_n_n.rhsIdx_val_of_single rfl j q
theorem rhs_col (j : S10000x128.Idx) (q : dot_S10000x128_S128x128_S10000x128_1_0_0_1_n_n.contr.Idx) : (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's product at entry (r, q) of the block: the sum over k of left (r, k) times right (k, q). -/
theorem product_apply (x0 : Vec Ideal S10000x128 .bf16) (x1 : Vec Ideal S128x128 .bf16) (j : S10000x128.Idx) :
    k2_pay1 (F := Ideal) x0 x1 j = ∑ k : Fin 128, x0 (rowCol j k) * x1 (wRowCol j k) := by
  unfold k2_pay1
  rw [shapeCast_self, shapeCast_self]
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = rowCol j k := funext fun a => Fin.ext (by
    match a with
    | ⟨0, _⟩ => exact lhs_row _ _
    | ⟨1, _⟩ => exact (lhs_col _ _).trans hk)
  have er : dot_S10000x128_S128x128_S10000x128_1_0_0_1_n_n.rhsIdx j ((ValueIdx.contrEquiv1 dot_S10000x128_S128x128_S10000x128_1_0_0_1_n_n 128 rfl rfl).symm k) = wRowCol j k := funext fun a => Fin.ext (by
    match a with
    | ⟨0, _⟩ => exact (rhs_row _ _).trans hk
    | ⟨1, _⟩ => exact rhs_col _ _)
  rw [el, er]

/-- The one whole product of the 100000×128 array by the 128×128 matrix, as the host computes it in one operation. -/
abbrev whole (X : FVec Ideal S100000x128 .bf16) (W : FVec Ideal S128x128 .bf16) : FVec Ideal S100000x128 .f32 :=
  Host.dotGeneral (F := Ideal) Cert.ReferenceIdeal.dot_S100000x128_S128x128_S100000x128_1_0_0_1_n_n none X W

/-- Entry (r, q) of the whole product is the sum over k of X (r, k) times W (k, q), whatever the two arrays are. -/
theorem whole_apply (X : FVec Ideal S100000x128 .bf16) (W : FVec Ideal S128x128 .bf16) (i : S100000x128.Idx) :
    whole X W i = ∑ k : Fin 128, X (Cert.ReferenceIdeal.Read.lidx_main_v47 i k) * W (Cert.ReferenceIdeal.Read.ridx_main_v47 i k) := by
  simp only [whole, Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = Cert.ReferenceIdeal.Read.lidx_main_v47 i k := funext fun a => Fin.ext (by
    match a with
    | ⟨0, _⟩ => exact Cert.ReferenceIdeal.Read.lhs_main_v47_0 _ _
    | ⟨1, _⟩ => exact (Cert.ReferenceIdeal.Read.lhs_main_v47_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = Cert.ReferenceIdeal.Read.ridx_main_v47 i k := funext fun a => Fin.ext (by
    match a with
    | ⟨0, _⟩ => exact (Cert.ReferenceIdeal.Read.rhs_main_v47_0 _ _).trans hk
    | ⟨1, _⟩ => exact Cert.ReferenceIdeal.Read.rhs_main_v47_1 _ _)
  rw [el, er]

/-- One term of the sum depends only on which entries of the two arrays it reads. -/
theorem term_congr (X : FVec Ideal S100000x128 .bf16) (W : FVec Ideal S128x128 .bf16) (p p' : S100000x128.Idx) (q q' : S128x128.Idx)
    (hp : p = p') (hq : q = q') : X p * W q = X p' * W q' := by rw [hp, hq]

/-- Over the ten grid points: the activations' row-block is the output's row-block, every other block index is 0,
    and the output's row-block index is at most 9. -/
theorem block_indices : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row-blocks is some grid point's. -/
theorem block_onto : ∀ q0 : Fin 10, ∃ t : Fin cfg2.N, win2_2.index t = ![q0.val, 0] :=
  (by decide +kernel : ∀ q0 : Fin 10, ∃ t : Fin grid2.N, win2_2.index t = ![q0.val, 0])

/-- What grid point t writes back is block t of the whole product of the two arrays as the region finds them. -/
theorem written_block (c : Dev nD) (t : Fin cfg2.N) :
    (dat2 (F := Ideal) V c).flushed 2 t = ((cfg2.win 2).blk t).view.read (Elt Ideal)
      (whole (V c main_v47) (V c main_v48)) := by
  show (cfg2.win 2).cut (grid2.coords t) ((dat2 (F := Ideal) V c).after 2 t) = _
  rw [after2_2]
  unfold out2_2
  rw [View.canon_unit_zero zero_offsets]
  simp only [View.ld_unit_zero (S := S10000x128) zero_offsets, View.ld_unit_zero (S := S128x128) zero_offsets]
  obtain ⟨e0, e1, e2, e3, e4, e5⟩ := block_indices t
  refine funext fun (j : S10000x128.Idx) => ?_
  show k2_pay1 (F := Ideal) (iblk2 V c 0 t) (iblk2 V c 1 t) j
    = whole (V c main_v47) (V c main_v48) (((cfg2.win 2).blk t).view.emb j)
  refine (product_apply (iblk2 V c 0 t) (iblk2 V c 1 t) j).trans ?_
  refine Eq.trans ?_ (whole_apply _ _ _).symm
  refine Finset.sum_congr rfl fun k _ => ?_
  have h0 : ((cfg2.win 0).blk t).view.emb (rowCol j k) = Cert.ReferenceIdeal.Read.lidx_main_v47 (((cfg2.win 2).blk t).view.emb j) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  have h1 : ((cfg2.win 1).blk t).view.emb (wRowCol j k) = Cert.ReferenceIdeal.Read.ridx_main_v47 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  exact term_congr (V c main_v47) (V c main_v48) _ _ _ _ h0 h1

/-- An index of the output array lies in point t's block iff each coordinate lies in the block's range on its axis. -/
theorem mem_block (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v49).slice (win2_2.rect t)).set ↔ _
  rw [View.set_slice_whole, Rect.mem_set_unit]
  exact Iff.rfl

/-- Row r of the output lies in the block of the grid point whose row-block is r / 10000. -/
theorem covered (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := block_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- After the region the output array is the whole product of the two arrays the region found. -/
theorem product_array (c : Dev nD) :
    (dat2 (F := Ideal) V c).arrAt 2 cfg2.N = whole (V c main_v47) (V c main_v48) :=
  (dat2 (F := Ideal) V c).arrAt_eq_of_cover 2 _ (fun t _ => written_block V c t) covered

end Cert.KernelIdeal.Dense2

end
-- ==== Proof.Dense3.lean ====
/-
  Layer 3, the dense product. The node features enter the kernel as ten blocks of 10000 rows; at grid point t the body
  multiplies rows 10000·t … 10000·t + 9999 of the activations (all 128 columns) by the whole 128×16 weight matrix
  into a zero accumulator, and writes the 10000×16 product back as rows 10000·t … of the output. Entry (r, q) of the
  output is therefore the sum over k < 128 of activation (r, k) times weight (k, q) — the same sum, term by term, as the
  one whole product of the two arrays; nothing is regrouped, so no finiteness is used. The ten blocks cover all 100000 rows.
  Everything is stated for ANY contents V of the buffers at the moment the region is entered.
-/
import proofs.«120182_j55765855371370_1_alg».proof.Proof.Gen.KernelIdeal.Frame
import proofs.«120182_j55765855371370_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Dense3

open Idealize.ShloMosaic Idealize.ShloMosaic.TcCoe Idealize.SL.Sem
open Cert.KernelIdeal Cert.KernelIdeal.Gen
open Idealize.ShloMosaic.Pipeline (Dat)

variable [hK : Cert.KernelIdeal.Facts] [hR : Cert.ReferenceIdeal.Facts]
variable (V : (c : Dev nD) → (b : Ref sig .tc) → Buf (Elt Ideal) ((c : Thread nD τ).loc b))

theorem zero_offsets : (![0, 0] : Fin 2 → Nat) = fun _ => 0 := funext fun a => by fin_cases a <;> rfl

/-- Row r, column k of a 10000×128 block, as an index of the block. -/
abbrev rowCol (j : S10000x16.Idx) (k : Fin 128) : S10000x128.Idx := fun a => match a with
  | ⟨0, _⟩ => ⟨(j 0).val, (j 0).isLt⟩
  | ⟨1, _⟩ => ⟨k.val, k.isLt⟩
/-- Row k, column q of the 128×16 weight matrix. -/
abbrev wRowCol (j : S10000x16.Idx) (k : Fin 128) : S128x16.Idx := fun a => match a with
  | ⟨0, _⟩ => ⟨k.val, k.isLt⟩
  | ⟨1, _⟩ => ⟨(j 1).val, (j 1).isLt⟩

theorem lhs_row (j : S10000x16.Idx) (q : dot_S10000x128_S128x16_S10000x16_1_0_0_1_n_n.contr.Idx) : (dot_S10000x128_S128x16_S10000x16_1_0_0_1_n_n.lhsIdx j q 0).val = (j 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem lhs_col (j : S10000x16.Idx) (q : dot_S10000x128_S128x16_S10000x16_1_0_0_1_n_n.contr.Idx) : (dot_S10000x128_S128x16_S10000x16_1_0_0_1_n_n.lhsIdx j q 1).val = (q ⟨0, by decide⟩).val :=
  dot_S10000x128_S128x16_S10000x16_1_0_0_1_n_n.lhsIdx_val_of_single rfl j q
theorem rhs_row (j : S10000x16.Idx) (q : dot_S10000x128_S128x16_S10000x16_1_0_0_1_n_n.contr.Idx) : (dot_S10000x128_S128x16_S10000x16_1_0_0_1_n_n.rhsIdx j q 0).val = (q ⟨0, by decide⟩).val :=
  dot_S10000x128_S128x16_S10000x16_1_0_0_1_n_n.rhsIdx_val_of_single rfl j q
theorem rhs_col (j : S10000x16.Idx) (q : dot_S10000x128_S128x16_S10000x16_1_0_0_1_n_n.contr.Idx) : (dot_S10000x128_S128x16_S10000x16_1_0_0_1_n_n.rhsIdx j q 1).val = (j 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- The body's product at entry (r, q) of the block: the sum over k of left (r, k) times right (k, q). -/
theorem product_apply (x0 : Vec Ideal S10000x128 .bf16) (x1 : Vec Ideal S128x16 .bf16) (j : S10000x16.Idx) :
    k4_pay1 (F := Ideal) x0 x1 j = ∑ k : Fin 128, x0 (rowCol j k) * x1 (wRowCol j k) := by
  unfold k4_pay1
  rw [shapeCast_self, shapeCast_self]
  simp only [matmul]
  rw [Ideal.matmul_constant_zero_apply, ← Equiv.sum_comp (ValueIdx.contrEquiv1 dot_S10000x128_S128x16_S10000x16_1_0_0_1_n_n 128 rfl rfl).symm]
  refine Finset.sum_congr rfl fun k _ => ?_
  have hk := ValueIdx.contrEquiv1_symm_val dot_S10000x128_S128x16_S10000x16_1_0_0_1_n_n 128 rfl rfl k
  have el : dot_S10000x128_S128x16_S10000x16_1_0_0_1_n_n.lhsIdx j ((ValueIdx.contrEquiv1 dot_S10000x128_S128x16_S10000x16_1_0_0_1_n_n 128 rfl rfl).symm k) = rowCol j k := funext fun a => Fin.ext (by
    match a with
    | ⟨0, _⟩ => exact lhs_row _ _
    | ⟨1, _⟩ => exact (lhs_col _ _).trans hk)
  have er : dot_S10000x128_S128x16_S10000x16_1_0_0_1_n_n.rhsIdx j ((ValueIdx.contrEquiv1 dot_S10000x128_S128x16_S10000x16_1_0_0_1_n_n 128 rfl rfl).symm k) = wRowCol j k := funext fun a => Fin.ext (by
    match a with
    | ⟨0, _⟩ => exact (rhs_row _ _).trans hk
    | ⟨1, _⟩ => exact rhs_col _ _)
  rw [el, er]

/-- The one whole product of the 100000×128 array by the 128×16 matrix, as the host computes it in one operation. -/
abbrev whole (X : FVec Ideal S100000x128 .bf16) (W : FVec Ideal S128x16 .bf16) : FVec Ideal S100000x16 .f32 :=
  Host.dotGeneral (F := Ideal) Cert.ReferenceIdeal.dot_S100000x128_S128x16_S100000x16_1_0_0_1_n_n none X W

/-- Entry (r, q) of the whole product is the sum over k of X (r, k) times W (k, q), whatever the two arrays are. -/
theorem whole_apply (X : FVec Ideal S100000x128 .bf16) (W : FVec Ideal S128x16 .bf16) (i : S100000x16.Idx) :
    whole X W i = ∑ k : Fin 128, X (Cert.ReferenceIdeal.Read.lidx_main_v65 i k) * W (Cert.ReferenceIdeal.Read.ridx_main_v65 i k) := by
  simp only [whole, Host.dotGeneral]
  rw [Ideal.dotGeneral_apply, ← Equiv.sum_comp (ValueIdx.contrEquiv1 Cert.ReferenceIdeal.dot_S100000x128_S128x16_S100000x16_1_0_0_1_n_n 128 rfl rfl).symm]
  refine Finset.sum_congr rfl fun k _ => ?_
  have hk := ValueIdx.contrEquiv1_symm_val Cert.ReferenceIdeal.dot_S100000x128_S128x16_S100000x16_1_0_0_1_n_n 128 rfl rfl k
  have el : Cert.ReferenceIdeal.dot_S100000x128_S128x16_S100000x16_1_0_0_1_n_n.lhsIdx i ((ValueIdx.contrEquiv1 Cert.ReferenceIdeal.dot_S100000x128_S128x16_S100000x16_1_0_0_1_n_n 128 rfl rfl).symm k) = Cert.ReferenceIdeal.Read.lidx_main_v65 i k := funext fun a => Fin.ext (by
    match a with
    | ⟨0, _⟩ => exact Cert.ReferenceIdeal.Read.lhs_main_v65_0 _ _
    | ⟨1, _⟩ => exact (Cert.ReferenceIdeal.Read.lhs_main_v65_1 _ _).trans hk)
  have er : Cert.ReferenceIdeal.dot_S100000x128_S128x16_S100000x16_1_0_0_1_n_n.rhsIdx i ((ValueIdx.contrEquiv1 Cert.ReferenceIdeal.dot_S100000x128_S128x16_S100000x16_1_0_0_1_n_n 128 rfl rfl).symm k) = Cert.ReferenceIdeal.Read.ridx_main_v65 i k := funext fun a => Fin.ext (by
    match a with
    | ⟨0, _⟩ => exact (Cert.ReferenceIdeal.Read.rhs_main_v65_0 _ _).trans hk
    | ⟨1, _⟩ => exact Cert.ReferenceIdeal.Read.rhs_main_v65_1 _ _)
  rw [el, er]

/-- One term of the sum depends only on which entries of the two arrays it reads. -/
theorem term_congr (X : FVec Ideal S100000x128 .bf16) (W : FVec Ideal S128x16 .bf16) (p p' : S100000x128.Idx) (q q' : S128x16.Idx)
    (hp : p = p') (hq : q = q') : X p * W q = X p' * W q' := by rw [hp, hq]

/-- Over the ten grid points: the activations' row-block is the output's row-block, every other block index is 0,
    and the output's row-block index is at most 9. -/
theorem block_indices : ∀ t : Fin cfg4.N, win4_0.index t (0 : Fin 2) = win4_2.index t (0 : Fin 2)
    ∧ win4_0.index t (1 : Fin 2) = 0
    ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every one of the ten row-blocks is some grid point's. -/
theorem block_onto : ∀ q0 : Fin 10, ∃ t : Fin cfg4.N, win4_2.index t = ![q0.val, 0] :=
  (by decide +kernel : ∀ q0 : Fin 10, ∃ t : Fin grid4.N, win4_2.index t = ![q0.val, 0])

/-- What grid point t writes back is block t of the whole product of the two arrays as the region finds them. -/
theorem written_block (c : Dev nD) (t : Fin cfg4.N) :
    (dat4 (F := Ideal) V c).flushed 2 t = ((cfg4.win 2).blk t).view.read (Elt Ideal)
      (whole (V c main_v65) (V c main_v66)) := by
  show (cfg4.win 2).cut (grid4.coords t) ((dat4 (F := Ideal) V c).after 2 t) = _
  rw [after4_2]
  unfold out4_2
  rw [View.canon_unit_zero zero_offsets]
  simp only [View.ld_unit_zero (S := S10000x128) zero_offsets, View.ld_unit_zero (S := S128x16) zero_offsets]
  obtain ⟨e0, e1, e2, e3, e4, e5⟩ := block_indices t
  refine funext fun (j : S10000x16.Idx) => ?_
  show k4_pay1 (F := Ideal) (iblk4 V c 0 t) (iblk4 V c 1 t) j
    = whole (V c main_v65) (V c main_v66) (((cfg4.win 2).blk t).view.emb j)
  refine (product_apply (iblk4 V c 0 t) (iblk4 V c 1 t) j).trans ?_
  refine Eq.trans ?_ (whole_apply _ _ _).symm
  refine Finset.sum_congr rfl fun k _ => ?_
  have h0 : ((cfg4.win 0).blk t).view.emb (rowCol j k) = Cert.ReferenceIdeal.Read.lidx_main_v65 (((cfg4.win 2).blk t).view.emb j) k := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 128 + 1 * k.val = k.val; omega
  have h1 : ((cfg4.win 1).blk t).view.emb (wRowCol j k) = Cert.ReferenceIdeal.Read.ridx_main_v65 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 16 + 1 * (j 1).val = win4_2.index t (1 : Fin 2) * 16 + 1 * (j 1).val; omega
  exact term_congr (V c main_v65) (V c main_v66) _ _ _ _ h0 h1

/-- An index of the output array lies in point t's block iff each coordinate lies in the block's range on its axis. -/
theorem mem_block (t : Fin cfg4.N) (i : S100000x16.Idx) :
    i ∈ ((cfg4.win 2).blk t).view.set ↔ ∀ a : Fin 2, win4_2.index t a * S10000x16.size a ≤ (i a).val ∧ (i a).val < win4_2.index t a * S10000x16.size a + S10000x16.size a := by
  show i ∈ ((View.whole main_v67).slice (win4_2.rect t)).set ↔ _
  rw [View.set_slice_whole, Rect.mem_set_unit]
  exact Iff.rfl

/-- Row r of the output lies in the block of the grid point whose row-block is r / 10000. -/
theorem covered (i : S100000x16.Idx) : ∃ t : Fin cfg4.N, (cfg4.win 2).flush t = true ∧ i ∈ ((cfg4.win 2).blk t).view.set := by
  have hi0 : (i 0).val < 100000 := (i 0).isLt
  have hi1 : (i 1).val < 16 := (i 1).isLt
  obtain ⟨t, ht⟩ := block_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 16 ≤ (i 1).val ∧ (i 1).val < win4_2.index t (1 : Fin 2) * 16 + 16; omega

/-- After the region the output array is the whole product of the two arrays the region found. -/
theorem product_array (c : Dev nD) :
    (dat4 (F := Ideal) V c).arrAt 2 cfg4.N = whole (V c main_v65) (V c main_v66) :=
  (dat4 (F := Ideal) V c).arrAt_eq_of_cover 2 _ (fun t _ => written_block V c t) covered

end Cert.KernelIdeal.Dense3

end
-- ==== Proof.Bias1.lean ====
/-
  Layer 1, after the aggregation: the bias is added and the result is clamped below at 0. The aggregated array enters the
  kernel as ten blocks of 10000 rows, the bias as one 1×128 row that every grid point sees whole; at grid point t the
  body adds bias column q to every entry (r, q) of the block and takes the maximum with 0, and writes the block back as rows
  10000·t … of the output. So entry (r, q) of the output is max (agg (r, q) + bias q, 0), an entrywise function of the two
  arrays; the ten blocks cover all 100000 rows. Stated for ANY contents V of the buffers when the region is entered.
-/
import proofs.«120182_j55765855371370_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Bias1

open Idealize.ShloMosaic Idealize.ShloMosaic.TcCoe Idealize.SL.Sem
open Cert.KernelIdeal Cert.KernelIdeal.Gen
open Idealize.ShloMosaic.Pipeline (Dat)

variable [hK : Cert.KernelIdeal.Facts]
variable (V : (c : Dev nD) → (b : Ref sig .tc) → Buf (Elt Ideal) ((c : Thread nD τ).loc b))

theorem zero_offsets : (![0, 0] : Fin 2 → Nat) = fun _ => 0 := funext fun a => by fin_cases a <;> rfl

/-- The bias entry that meets entry (r, q) of a block: row 0, column q of the 1×128 row. -/
abbrev biasOfBlock (j : S10000x128.Idx) : S1x128.Idx := fun a => match a with
  | ⟨0, _⟩ => ⟨0, Nat.one_pos⟩
  | ⟨1, _⟩ => ⟨(j 1).val, (j 1).isLt⟩
/-- The same for entry (r, q) of the whole array. -/
abbrev biasOf (i : S100000x128.Idx) : S1x128.Idx := fun a => match a with
  | ⟨0, _⟩ => ⟨0, Nat.one_pos⟩
  | ⟨1, _⟩ => ⟨(i 1).val, (i 1).isLt⟩

/-- The layer's entrywise step on whole arrays: max (A (r, q) + b (0, q), 0). -/
abbrev shifted (A : FVec Ideal S100000x128 .f32) (b : FVec Ideal S1x128 .f32) : FVec Ideal S100000x128 .f32 :=
  fun i => max (A i + b (biasOf i)) (Ideal.ofBits .f32 0x00000000#32)

/-- The body's arithmetic at entry (r, q) of the block. -/
theorem step_apply (x0 : Vec Ideal S10000x128 .f32) (x1 : Vec Ideal S1x128 .f32) (j : S10000x128.Idx) :
    k1_pay1 (F := Ideal) x0 x1 j = max (x0 j + x1 (biasOfBlock j)) (Ideal.ofBits .f32 0x00000000#32) := by
  unfold k1_pay1
  rw [shapeCast_self, shapeCast_self]
  show max (x0 j + broadcastTo S10000x128 x1 broadcasts_S1x128_S10000x128 j) (Ideal.ofBits .f32 0x00000000#32) = _
  rw [broadcastTo_apply x1 broadcasts_S1x128_S10000x128 j (biasOfBlock j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]

/-- An entry of the step depends only on which entries of the two arrays it reads. -/
theorem entry_congr (A : FVec Ideal S100000x128 .f32) (b : FVec Ideal S1x128 .f32) (p p' : S100000x128.Idx) (q q' : S1x128.Idx)
    (hp : p = p') (hq : q = q') : max (A p + b q) (Ideal.ofBits .f32 0x00000000#32) = max (A p' + b q') (Ideal.ofBits .f32 0x00000000#32) := by rw [hp, hq]

/-- Over the ten grid points: the aggregated array's row-block is the output's, every other block index is 0. -/
theorem block_indices : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the ten row-blocks is some grid point's. -/
theorem block_onto : ∀ q0 : Fin 10, ∃ t : Fin cfg1.N, win1_2.index t = ![q0.val, 0] :=
  (by decide +kernel : ∀ q0 : Fin 10, ∃ t : Fin grid1.N, win1_2.index t = ![q0.val, 0])

/-- What grid point t writes back is block t of the entrywise step on the two arrays as the region finds them. -/
theorem written_block (c : Dev nD) (t : Fin cfg1.N) :
    (dat1 (F := Ideal) V c).flushed 2 t = ((cfg1.win 2).blk t).view.read (Elt Ideal) (shifted (V c main_v44) (V c main_v45)) := by
  show (cfg1.win 2).cut (grid1.coords t) ((dat1 (F := Ideal) V c).after 2 t) = _
  rw [after1_2]
  unfold out1_2
  rw [View.canon_unit_zero zero_offsets]
  simp only [View.ld_unit_zero (S := S10000x128) zero_offsets, View.ld_unit_zero (S := S1x128) zero_offsets]
  obtain ⟨e0, e1, e2, e3, e4, e5⟩ := block_indices t
  refine funext fun (j : S10000x128.Idx) => ?_
  show k1_pay1 (F := Ideal) (iblk1 V c 0 t) (iblk1 V c 1 t) j = shifted (V c main_v44) (V c main_v45) (((cfg1.win 2).blk t).view.emb j)
  refine (step_apply (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (biasOfBlock j) = biasOf (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  exact entry_congr (V c main_v44) (V c main_v45) _ _ _ _ h0 h1

/-- An index of the output array lies in point t's block iff each coordinate lies in the block's range on its axis. -/
theorem mem_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v46).slice (win1_2.rect t)).set ↔ _
  rw [View.set_slice_whole, Rect.mem_set_unit]
  exact Iff.rfl

/-- Row r of the output lies in the block of the grid point whose row-block is r / 10000. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := block_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the region the output array is the entrywise step on the two arrays the region found. -/
theorem shifted_array (c : Dev nD) :
    (dat1 (F := Ideal) V c).arrAt 2 cfg1.N = shifted (V c main_v44) (V c main_v45) :=
  (dat1 (F := Ideal) V c).arrAt_eq_of_cover 2 _ (fun t _ => written_block V c t) covered

end Cert.KernelIdeal.Bias1

end
-- ==== Proof.Bias2.lean ====
/-
  Layer 2, after the aggregation: the bias is added and the result is clamped below at 0. The aggregated array enters the
  kernel as ten blocks of 10000 rows, the bias as one 1×128 row that every grid point sees whole; at grid point t the
  body adds bias column q to every entry (r, q) of the block and takes the maximum with 0, and writes the block back as rows
  10000·t … of the output. So entry (r, q) of the output is max (agg (r, q) + bias q, 0), an entrywise function of the two
  arrays; the ten blocks cover all 100000 rows. Stated for ANY contents V of the buffers when the region is entered.
-/
import proofs.«120182_j55765855371370_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Bias2

open Idealize.ShloMosaic Idealize.ShloMosaic.TcCoe Idealize.SL.Sem
open Cert.KernelIdeal Cert.KernelIdeal.Gen
open Idealize.ShloMosaic.Pipeline (Dat)

variable [hK : Cert.KernelIdeal.Facts]
variable (V : (c : Dev nD) → (b : Ref sig .tc) → Buf (Elt Ideal) ((c : Thread nD τ).loc b))

theorem zero_offsets : (![0, 0] : Fin 2 → Nat) = fun _ => 0 := funext fun a => by fin_cases a <;> rfl

/-- The bias entry that meets entry (r, q) of a block: row 0, column q of the 1×128 row. -/
abbrev biasOfBlock (j : S10000x128.Idx) : S1x128.Idx := fun a => match a with
  | ⟨0, _⟩ => ⟨0, Nat.one_pos⟩
  | ⟨1, _⟩ => ⟨(j 1).val, (j 1).isLt⟩
/-- The same for entry (r, q) of the whole array. -/
abbrev biasOf (i : S100000x128.Idx) : S1x128.Idx := fun a => match a with
  | ⟨0, _⟩ => ⟨0, Nat.one_pos⟩
  | ⟨1, _⟩ => ⟨(i 1).val, (i 1).isLt⟩

/-- The layer's entrywise step on whole arrays: max (A (r, q) + b (0, q), 0). -/
abbrev shifted (A : FVec Ideal S100000x128 .f32) (b : FVec Ideal S1x128 .f32) : FVec Ideal S100000x128 .f32 :=
  fun i => max (A i + b (biasOf i)) (Ideal.ofBits .f32 0x00000000#32)

/-- The body's arithmetic at entry (r, q) of the block. -/
theorem step_apply (x0 : Vec Ideal S10000x128 .f32) (x1 : Vec Ideal S1x128 .f32) (j : S10000x128.Idx) :
    k3_pay1 (F := Ideal) x0 x1 j = max (x0 j + x1 (biasOfBlock j)) (Ideal.ofBits .f32 0x00000000#32) := by
  unfold k3_pay1
  rw [shapeCast_self, shapeCast_self]
  show max (x0 j + broadcastTo S10000x128 x1 broadcasts_S1x128_S10000x128 j) (Ideal.ofBits .f32 0x00000000#32) = _
  rw [broadcastTo_apply x1 broadcasts_S1x128_S10000x128 j (biasOfBlock j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]

/-- An entry of the step depends only on which entries of the two arrays it reads. -/
theorem entry_congr (A : FVec Ideal S100000x128 .f32) (b : FVec Ideal S1x128 .f32) (p p' : S100000x128.Idx) (q q' : S1x128.Idx)
    (hp : p = p') (hq : q = q') : max (A p + b q) (Ideal.ofBits .f32 0x00000000#32) = max (A p' + b q') (Ideal.ofBits .f32 0x00000000#32) := by rw [hp, hq]

/-- Over the ten grid points: the aggregated array's row-block is the output's, every other block index is 0. -/
theorem block_indices : ∀ t : Fin cfg3.N, win3_0.index t (0 : Fin 2) = win3_2.index t (0 : Fin 2)
    ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every one of the ten row-blocks is some grid point's. -/
theorem block_onto : ∀ q0 : Fin 10, ∃ t : Fin cfg3.N, win3_2.index t = ![q0.val, 0] :=
  (by decide +kernel : ∀ q0 : Fin 10, ∃ t : Fin grid3.N, win3_2.index t = ![q0.val, 0])

/-- What grid point t writes back is block t of the entrywise step on the two arrays as the region finds them. -/
theorem written_block (c : Dev nD) (t : Fin cfg3.N) :
    (dat3 (F := Ideal) V c).flushed 2 t = ((cfg3.win 2).blk t).view.read (Elt Ideal) (shifted (V c main_v62) (V c main_v63)) := by
  show (cfg3.win 2).cut (grid3.coords t) ((dat3 (F := Ideal) V c).after 2 t) = _
  rw [after3_2]
  unfold out3_2
  rw [View.canon_unit_zero zero_offsets]
  simp only [View.ld_unit_zero (S := S10000x128) zero_offsets, View.ld_unit_zero (S := S1x128) zero_offsets]
  obtain ⟨e0, e1, e2, e3, e4, e5⟩ := block_indices t
  refine funext fun (j : S10000x128.Idx) => ?_
  show k3_pay1 (F := Ideal) (iblk3 V c 0 t) (iblk3 V c 1 t) j = shifted (V c main_v62) (V c main_v63) (((cfg3.win 2).blk t).view.emb j)
  refine (step_apply (iblk3 V c 0 t) (iblk3 V c 1 t) j).trans ?_
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (biasOfBlock j) = biasOf (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  exact entry_congr (V c main_v62) (V c main_v63) _ _ _ _ h0 h1

/-- An index of the output array lies in point t's block iff each coordinate lies in the block's range on its axis. -/
theorem mem_block (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v64).slice (win3_2.rect t)).set ↔ _
  rw [View.set_slice_whole, Rect.mem_set_unit]
  exact Iff.rfl

/-- Row r of the output lies in the block of the grid point whose row-block is r / 10000. -/
theorem covered (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := block_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- After the region the output array is the entrywise step on the two arrays the region found. -/
theorem shifted_array (c : Dev nD) :
    (dat3 (F := Ideal) V c).arrAt 2 cfg3.N = shifted (V c main_v62) (V c main_v63) :=
  (dat3 (F := Ideal) V c).arrAt_eq_of_cover 2 _ (fun t _ => written_block V c t) covered

end Cert.KernelIdeal.Bias2

end
-- ==== Proof.Bias3.lean ====
/-
  Layer 3, after the aggregation: the bias is added. The aggregated array enters the
  kernel as ten blocks of 10000 rows, the bias as one 1×16 row that every grid point sees whole; at grid point t the
  body adds bias column q to every entry (r, q) of the block, and writes the block back as rows
  10000·t … of the output. So entry (r, q) of the output is agg (r, q) + bias q, an entrywise function of the two
  arrays; the ten blocks cover all 100000 rows. Stated for ANY contents V of the buffers when the region is entered.
-/
import proofs.«120182_j55765855371370_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Bias3

open Idealize.ShloMosaic Idealize.ShloMosaic.TcCoe Idealize.SL.Sem
open Cert.KernelIdeal Cert.KernelIdeal.Gen
open Idealize.ShloMosaic.Pipeline (Dat)

variable [hK : Cert.KernelIdeal.Facts]
variable (V : (c : Dev nD) → (b : Ref sig .tc) → Buf (Elt Ideal) ((c : Thread nD τ).loc b))

theorem zero_offsets : (![0, 0] : Fin 2 → Nat) = fun _ => 0 := funext fun a => by fin_cases a <;> rfl

/-- The bias entry that meets entry (r, q) of a block: row 0, column q of the 1×16 row. -/
abbrev biasOfBlock (j : S10000x16.Idx) : S1x16.Idx := fun a => match a with
  | ⟨0, _⟩ => ⟨0, Nat.one_pos⟩
  | ⟨1, _⟩ => ⟨(j 1).val, (j 1).isLt⟩
/-- The same for entry (r, q) of the whole array. -/
abbrev biasOf (i : S100000x16.Idx) : S1x16.Idx := fun a => match a with
  | ⟨0, _⟩ => ⟨0, Nat.one_pos⟩
  | ⟨1, _⟩ => ⟨(i 1).val, (i 1).isLt⟩

/-- The layer's entrywise step on whole arrays: A (r, q) + b (0, q). -/
abbrev shifted (A : FVec Ideal S100000x16 .f32) (b : FVec Ideal S1x16 .f32) : FVec Ideal S100000x16 .f32 :=
  fun i => A i + b (biasOf i)

/-- The body's arithmetic at entry (r, q) of the block. -/
theorem step_apply (x0 : Vec Ideal S10000x16 .f32) (x1 : Vec Ideal S1x16 .f32) (j : S10000x16.Idx) :
    k5_pay1 (F := Ideal) x0 x1 j = x0 j + x1 (biasOfBlock j) := by
  unfold k5_pay1
  rw [shapeCast_self, shapeCast_self]
  show x0 j + broadcastTo S10000x16 x1 broadcasts_S1x16_S10000x16 j = _
  rw [broadcastTo_apply x1 broadcasts_S1x16_S10000x16 j (biasOfBlock j) (fun a => match a with
    | ⟨0, _⟩ => by show 0 = if (1 : Nat) = 1 then 0 else (j 0).val; rw [if_pos rfl]
    | ⟨1, _⟩ => by show (j 1).val = if (16 : Nat) = 1 then 0 else (j 1).val; rw [if_neg (by decide)])]

/-- An entry of the step depends only on which entries of the two arrays it reads. -/
theorem entry_congr (A : FVec Ideal S100000x16 .f32) (b : FVec Ideal S1x16 .f32) (p p' : S100000x16.Idx) (q q' : S1x16.Idx)
    (hp : p = p') (hq : q = q') : A p + b q = A p' + b q' := by rw [hp, hq]

/-- Over the ten grid points: the aggregated array's row-block is the output's, every other block index is 0. -/
theorem block_indices : ∀ t : Fin cfg5.N, win5_0.index t (0 : Fin 2) = win5_2.index t (0 : Fin 2)
    ∧ win5_0.index t (1 : Fin 2) = 0
    ∧ win5_1.index t (0 : Fin 2) = 0 ∧ win5_1.index t (1 : Fin 2) = 0
    ∧ win5_2.index t (1 : Fin 2) = 0 ∧ win5_2.index t (0 : Fin 2) ≤ 9 :=
  (by decide +kernel : ∀ t : Fin grid5.N, _)

/-- Every one of the ten row-blocks is some grid point's. -/
theorem block_onto : ∀ q0 : Fin 10, ∃ t : Fin cfg5.N, win5_2.index t = ![q0.val, 0] :=
  (by decide +kernel : ∀ q0 : Fin 10, ∃ t : Fin grid5.N, win5_2.index t = ![q0.val, 0])

/-- What grid point t writes back is block t of the entrywise step on the two arrays as the region finds them. -/
theorem written_block (c : Dev nD) (t : Fin cfg5.N) :
    (dat5 (F := Ideal) V c).flushed 2 t = ((cfg5.win 2).blk t).view.read (Elt Ideal) (shifted (V c main_v80) (V c main_v81)) := by
  show (cfg5.win 2).cut (grid5.coords t) ((dat5 (F := Ideal) V c).after 2 t) = _
  rw [after5_2]
  unfold out5_2
  rw [View.canon_unit_zero zero_offsets]
  simp only [View.ld_unit_zero (S := S10000x16) zero_offsets, View.ld_unit_zero (S := S1x16) zero_offsets]
  obtain ⟨e0, e1, e2, e3, e4, e5⟩ := block_indices t
  refine funext fun (j : S10000x16.Idx) => ?_
  show k5_pay1 (F := Ideal) (iblk5 V c 0 t) (iblk5 V c 1 t) j = shifted (V c main_v80) (V c main_v81) (((cfg5.win 2).blk t).view.emb j)
  refine (step_apply (iblk5 V c 0 t) (iblk5 V c 1 t) j).trans ?_
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 16 + 1 * (j 1).val = win5_2.index t (1 : Fin 2) * 16 + 1 * (j 1).val; omega
  have h1 : ((cfg5.win 1).blk t).view.emb (biasOfBlock j) = biasOf (((cfg5.win 2).blk t).view.emb j) := by
    funext a; apply Fin.ext
    match a with
    | ⟨0, _⟩ => show win5_1.index t (0 : Fin 2) * 1 + 1 * 0 = 0; omega
    | ⟨1, _⟩ => show win5_1.index t (1 : Fin 2) * 16 + 1 * (j 1).val = win5_2.index t (1 : Fin 2) * 16 + 1 * (j 1).val; omega
  exact entry_congr (V c main_v80) (V c main_v81) _ _ _ _ h0 h1

/-- An index of the output array lies in point t's block iff each coordinate lies in the block's range on its axis. -/
theorem mem_block (t : Fin cfg5.N) (i : S100000x16.Idx) :
    i ∈ ((cfg5.win 2).blk t).view.set ↔ ∀ a : Fin 2, win5_2.index t a * S10000x16.size a ≤ (i a).val ∧ (i a).val < win5_2.index t a * S10000x16.size a + S10000x16.size a := by
  show i ∈ ((View.whole main_v82).slice (win5_2.rect t)).set ↔ _
  rw [View.set_slice_whole, Rect.mem_set_unit]
  exact Iff.rfl

/-- Row r of the output lies in the block of the grid point whose row-block is r / 10000. -/
theorem covered (i : S100000x16.Idx) : ∃ t : Fin cfg5.N, (cfg5.win 2).flush t = true ∧ i ∈ ((cfg5.win 2).blk t).view.set := by
  have hi0 : (i 0).val < 100000 := (i 0).isLt
  have hi1 : (i 1).val < 16 := (i 1).isLt
  obtain ⟨t, ht⟩ := block_onto ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 16 ≤ (i 1).val ∧ (i 1).val < win5_2.index t (1 : Fin 2) * 16 + 16; omega

/-- After the region the output array is the entrywise step on the two arrays the region found. -/
theorem shifted_array (c : Dev nD) :
    (dat5 (F := Ideal) V c).arrAt 2 cfg5.N = shifted (V c main_v80) (V c main_v81) :=
  (dat5 (F := Ideal) V c).arrAt_eq_of_cover 2 _ (fun t _ => written_block V c t) covered

end Cert.KernelIdeal.Bias3

end
-- ==== Proof.Bridges.lean ====
/-
  Two small facts that let the kernel's arrays be recognised as the reference's, stated for ANY arrays.
  (1) Adding a bias that has been reshaped to one row to entry (r, q) — and, in the first two layers, taking the maximum
  with 0 — is, as a whole-array operation, the reference's: broadcast the bias along the rows, add, take the maximum
  with the zero array. (2) At the extended reals narrowing an array to bf16 is the identity, so the whole product of
  two narrowed arrays is the product of the arrays.
-/
import proofs.«120182_j55765855371370_1_alg».proof.Proof.Gen.KernelIdeal.Frame
import proofs.«120182_j55765855371370_1_alg».proof.Proof.Gen.ReferenceIdeal.Read
import proofs.«120182_j55765855371370_1_alg».proof.Proof.Dense1
import proofs.«120182_j55765855371370_1_alg».proof.Proof.Dense2
import proofs.«120182_j55765855371370_1_alg».proof.Proof.Dense3
import proofs.«120182_j55765855371370_1_alg».proof.Proof.Bias1
import proofs.«120182_j55765855371370_1_alg».proof.Proof.Bias2
import proofs.«120182_j55765855371370_1_alg».proof.Proof.Bias3
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

variable [hK : Cert.KernelIdeal.Facts] [hR : Cert.ReferenceIdeal.Facts]

/-! ## Bias (and clamp): the kernel's entrywise step is the reference's broadcast, sum and maximum -/

/-- Layer 1: with the bias reshaped to one row, max (A (r, q) + b q, 0) is the maximum with the zero array of A plus
    the bias broadcast along the rows. -/
theorem bias_step_1 (A : FVec Ideal S100000x128 .f32) (b : FVec Ideal S128 .f32) :
    Bias1.shifted A (shapeCast S1x128 b shapeCasts_S128_S1x128)
      = maximumf (addf A (Cert.ReferenceIdeal.Read.val_main_v44 (F := Ideal) b)) (Cert.ReferenceIdeal.Read.val_main_call0_v0 (F := Ideal)) := by
  funext i
  show max (A i + shapeCast S1x128 b shapeCasts_S128_S1x128 (Bias1.biasOf i)) (Ideal.ofBits .f32 0x00000000#32)
    = max (A i + Cert.ReferenceIdeal.Read.val_main_v44 (F := Ideal) b i) (Cert.ReferenceIdeal.Read.val_main_call0_v0 (F := Ideal) i)
  rw [Cert.ReferenceIdeal.Read.val_main_v44_apply, Cert.ReferenceIdeal.Read.val_main_v43_apply, Cert.ReferenceIdeal.Read.val_main_call0_v0_apply, Cert.ReferenceIdeal.Read.val_main_call0_cst_apply]
  rw [shapeCast_apply b shapeCasts_S128_S1x128 (Bias1.biasOf i) (Cert.ReferenceIdeal.Read.idx_main_v43 (Cert.ReferenceIdeal.Read.idx_main_v44 i))
    ((Shape.rowMajor_val_one (d := ![128]) _).trans (Eq.trans (by show (i 1).val = 0 * 128 + (i 1).val; omega) (Shape.rowMajor_val_two (d := ![1, 128]) _).symm))]
  rfl

/-- Layer 2: the same. -/
theorem bias_step_2 (A : FVec Ideal S100000x128 .f32) (b : FVec Ideal S128 .f32) :
    Bias2.shifted A (shapeCast S1x128 b shapeCasts_S128_S1x128)
      = maximumf (addf A (Cert.ReferenceIdeal.Read.val_main_v62 (F := Ideal) b)) (Cert.ReferenceIdeal.Read.val_main_call1_v0 (F := Ideal)) := by
  funext i
  show max (A i + shapeCast S1x128 b shapeCasts_S128_S1x128 (Bias2.biasOf i)) (Ideal.ofBits .f32 0x00000000#32)
    = max (A i + Cert.ReferenceIdeal.Read.val_main_v62 (F := Ideal) b i) (Cert.ReferenceIdeal.Read.val_main_call1_v0 (F := Ideal) i)
  rw [Cert.ReferenceIdeal.Read.val_main_v62_apply, Cert.ReferenceIdeal.Read.val_main_v61_apply, Cert.ReferenceIdeal.Read.val_main_call1_v0_apply, Cert.ReferenceIdeal.Read.val_main_call1_cst_apply]
  rw [shapeCast_apply b shapeCasts_S128_S1x128 (Bias2.biasOf i) (Cert.ReferenceIdeal.Read.idx_main_v61 (Cert.ReferenceIdeal.Read.idx_main_v62 i))
    ((Shape.rowMajor_val_one (d := ![128]) _).trans (Eq.trans (by show (i 1).val = 0 * 128 + (i 1).val; omega) (Shape.rowMajor_val_two (d := ![1, 128]) _).symm))]
  rfl

/-- Layer 3, which does not clamp: A (r, q) + b q is A plus the bias broadcast along the rows. -/
theorem bias_step_3 (A : FVec Ideal S100000x16 .f32) (b : FVec Ideal S16 .f32) :
    Bias3.shifted A (shapeCast S1x16 b shapeCasts_S16_S1x16) = addf A (Cert.ReferenceIdeal.Read.val_main_v80 (F := Ideal) b) := by
  funext i
  show A i + shapeCast S1x16 b shapeCasts_S16_S1x16 (Bias3.biasOf i) = A i + Cert.ReferenceIdeal.Read.val_main_v80 (F := Ideal) b i
  rw [Cert.ReferenceIdeal.Read.val_main_v80_apply, Cert.ReferenceIdeal.Read.val_main_v79_apply]
  rw [shapeCast_apply b shapeCasts_S16_S1x16 (Bias3.biasOf i) (Cert.ReferenceIdeal.Read.idx_main_v79 (Cert.ReferenceIdeal.Read.idx_main_v80 i))
    ((Shape.rowMajor_val_one (d := ![16]) _).trans (Eq.trans (by show (i 1).val = 0 * 16 + (i 1).val; omega) (Shape.rowMajor_val_two (d := ![1, 16]) _).symm))]

/-! ## Narrowing to bf16 changes nothing at the extended reals -/

/-- A narrowed array is the array. -/
theorem narrow_id {s : Shape} (X : FVec Ideal s .f32) (h : FTy.bf16.bits < FTy.f32.bits) :
    truncf .bf16 X h = fun i => X i := rfl

/-- Layer 1: the whole product of the narrowed arrays is the reference's product of the arrays. -/
theorem product_1 (X : FVec Ideal S100000x256 .f32) (W : FVec Ideal S256x128 .f32) :
    Dense1.whole (fun i => X i) (fun i => W i) = Cert.ReferenceIdeal.Read.val_main_v29 (F := Ideal) X W := rfl

/-- Layer 2: the same, as the host's product (the reference applies it to its own layer-1 activations). -/
theorem product_2 (X : FVec Ideal S100000x128 .f32) (W : FVec Ideal S128x128 .f32) :
    Dense2.whole (fun i => X i) (fun i => W i)
      = Host.dotGeneral (F := Ideal) Cert.ReferenceIdeal.dot_S100000x128_S128x128_S100000x128_1_0_0_1_n_n none X W := rfl

/-- Layer 3: the same. -/
theorem product_3 (X : FVec Ideal S100000x128 .f32) (W : FVec Ideal S128x16 .f32) :
    Dense3.whole (fun i => X i) (fun i => W i)
      = Host.dotGeneral (F := Ideal) Cert.ReferenceIdeal.dot_S100000x128_S128x16_S100000x16_1_0_0_1_n_n none X W := rfl

end Cert.KernelIdeal.Stages

end
-- ==== Proof.EdgeData.lean ====
/-
  The first stretch of host operations, read against the reference: the edges' source and destination lists with a
  self-loop appended for every node, the per-edge normalising factors (the product of the inverse square roots of the
  two endpoints' degrees, degrees counted with the self-loops and clamped below at 1), and the first layer's two
  inputs narrowed to bf16. The kernel computes the first three with the reference's own operations, so each is the
  reference's stage of the edge list, whatever integers the edge list holds.
-/
import proofs.«120182_j55765855371370_1_alg».proof.Proof.Gen.KernelIdeal.Frame
import proofs.«120182_j55765855371370_1_alg».proof.Proof.Gen.ReferenceIdeal.Read
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

variable [hK : Cert.KernelIdeal.Facts] [hR : Cert.ReferenceIdeal.Facts]

variable (m : (ℓ : Loc nD τ sig) → Buf (Elt Ideal) ℓ) (ρ : Dev nD → PrngReg)

/-! ## The first stretch: edge lists, normalising factors, and the first layer's narrowed inputs -/

/-- The edges' sources, self-loops appended: the reference's. -/
theorem src_1 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  dsimp only [hostOps0]
  after_results
  rfl

/-- The edges' destinations, self-loops appended: the reference's. -/
theorem dst_1 (c : Dev nD) : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  dsimp only [hostOps0]
  after_results
  rfl

/-- The per-edge factors (inverse square roots of the two endpoints' degrees, multiplied): the reference's. -/
theorem norm_1 (c : Dev nD) : W1 m ρ c (Proc.devRef .tc main_v28) = Cert.ReferenceIdeal.Read.val_main_v28 (F := Ideal) (m ((c : Thread nD τ).loc main_arg1)) := by
  show StableHlo.after hostOps0 (W0 m ρ c) (Proc.devRef .tc main_v28) = _
  dsimp only [hostOps0]
  after_results_simp <;> rfl

/-- The node features, narrowed. -/
theorem x_1 (c : Dev nD) : W1 m ρ c (Proc.devRef .tc main_v29) = (fun i => (m ((c : Thread nD τ).loc main_arg0)) i) := by
  show StableHlo.after hostOps0 (W0 m ρ c) (Proc.devRef .tc main_v29) = _
  dsimp only [hostOps0]
  after_results
  rfl

/-- The first layer's weights, narrowed. -/
theorem w_1 (c : Dev nD) : W1 m ρ c (Proc.devRef .tc main_v30) = (fun i => (m ((c : Thread nD τ).loc main_arg2)) i) := by
  show StableHlo.after hostOps0 (W0 m ρ c) (Proc.devRef .tc main_v30) = _
  dsimp only [hostOps0]
  after_results
  rfl

end Cert.KernelIdeal.Stages

end
-- ==== Proof.Layer1.lean ====
/-
  Layer 1, boundary by boundary: the product region leaves the reference's h = X·W of this layer (X the node features); the next
  stretch gathers h along the edges' sources, scales each message by its edge's factor and sums the messages into
  their destinations with the reference's own operations, applied to equal arrays — the reference's aggregate; the
  bias region leaves the reference's activations (bias added, clamped below at 0).
-/
import proofs.«120182_j55765855371370_1_alg».proof.Proof.Gen.KernelIdeal.Frame
import proofs.«120182_j55765855371370_1_alg».proof.Proof.Gen.ReferenceIdeal.Read
import proofs.«120182_j55765855371370_1_alg».proof.Proof.Kept
import proofs.«120182_j55765855371370_1_alg».proof.Proof.Bridges
import proofs.«120182_j55765855371370_1_alg».proof.Proof.EdgeData
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

variable [hK : Cert.KernelIdeal.Facts] [hR : Cert.ReferenceIdeal.Facts]

variable (m : (ℓ : Loc nD τ sig) → Buf (Elt Ideal) ℓ) (ρ : Dev nD → PrngReg)

/-! ## Layer 1 -/

/-- After region 0: the product of the features by the first weights — the reference's h of layer 1. -/
theorem h_1 (c : Dev nD) : W2 m ρ c (Proc.devRef .tc main_v31) = Cert.ReferenceIdeal.Read.val_main_v29 (F := Ideal) (m ((c : Thread nD τ).loc main_arg0)) (m ((c : Thread nD τ).loc main_arg2)) := by
  refine (W2_arr m ρ c 2).trans ?_
  refine (Dense1.product_array (V1 m ρ) c).trans ?_
  show Dense1.whole (W1 m ρ c (Proc.devRef .tc main_v29)) (W1 m ρ c (Proc.devRef .tc main_v30)) = _
  rw [x_1 m ρ c, w_1 m ρ c]
  exact product_1 _ _

set_option maxHeartbeats 8000000 in
/-- The messages gathered, scaled and summed into their destinations: the reference's aggregate of layer 1. -/
theorem agg_1 (c : Dev nD) : W3 m ρ c (Proc.devRef .tc main_v44) = Cert.ReferenceIdeal.Read.val_main_v42 (F := Ideal) (m ((c : Thread nD τ).loc main_arg0)) (m ((c : Thread nD τ).loc main_arg1)) (m ((c : Thread nD τ).loc main_arg2)) := by
  show StableHlo.after hostOps1 (W2 m ρ c) (Proc.devRef .tc main_v44) = _
  dsimp only [hostOps1]
  after_results_simp
  rw [h_1 m ρ c, Kept.src_2 m ρ c, src_1 m ρ c, Kept.dst_2 m ρ c, dst_1 m ρ c, Kept.norm_2 m ρ c, norm_1 m ρ c]
  simp only [Cert.ReferenceIdeal.Read.val_main_v42, Cert.ReferenceIdeal.Read.val_main_v41, Cert.ReferenceIdeal.Read.val_main_v40, Cert.ReferenceIdeal.Read.val_main_cst_7, Cert.ReferenceIdeal.Read.val_main_v39, Cert.ReferenceIdeal.Read.val_main_v38, Cert.ReferenceIdeal.Read.val_main_v37, Cert.ReferenceIdeal.Read.val_main_v36, Cert.ReferenceIdeal.Read.val_main_v35, Cert.ReferenceIdeal.Read.val_main_v34, Cert.ReferenceIdeal.Read.val_main_v33, Cert.ReferenceIdeal.Read.val_main_v32, Cert.ReferenceIdeal.Read.val_main_c_6, Cert.ReferenceIdeal.Read.val_main_v31, Cert.ReferenceIdeal.Read.val_main_v30, Cert.ReferenceIdeal.Read.val_main_c_5]
  rfl

/-- The first bias as one row. -/
theorem b_1 (c : Dev nD) : W3 m ρ c (Proc.devRef .tc main_v45) = shapeCast S1x128 (m ((c : Thread nD τ).loc main_arg3)) shapeCasts_S128_S1x128 := by
  show StableHlo.after hostOps1 (W2 m ρ c) (Proc.devRef .tc main_v45) = _
  dsimp only [hostOps1]
  after_results
  rw [Kept.arg3_2 m ρ c]
  rfl

/-- After region 1: the reference's activations of layer 1. -/
theorem act_1 (c : Dev nD) : W4 m ρ c (Proc.devRef .tc main_v46) = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) := by
  refine (W4_arr m ρ c 2).trans ?_
  refine (Bias1.shifted_array (V3 m ρ) c).trans ?_
  show Bias1.shifted (W3 m ρ c (Proc.devRef .tc main_v44)) (W3 m ρ c (Proc.devRef .tc main_v45)) = _
  rw [agg_1 m ρ c, b_1 m ρ c]
  exact (bias_step_1 _ _).trans (by simp only [Cert.ReferenceIdeal.Read.val_main_v46, Cert.ReferenceIdeal.Read.val_main_v45])

end Cert.KernelIdeal.Stages

end
-- ==== Proof.Layer2.lean ====
/-
  Layer 2, boundary by boundary: the product region leaves the reference's h = X·W of this layer (X layer 1's activations); the next
  stretch gathers h along the edges' sources, scales each message by its edge's factor and sums the messages into
  their destinations with the reference's own operations, applied to equal arrays — the reference's aggregate; the
  bias region leaves the reference's activations (bias added, clamped below at 0).
-/
import proofs.«120182_j55765855371370_1_alg».proof.Proof.Gen.KernelIdeal.Frame
import proofs.«120182_j55765855371370_1_alg».proof.Proof.Gen.ReferenceIdeal.Read
import proofs.«120182_j55765855371370_1_alg».proof.Proof.Kept
import proofs.«120182_j55765855371370_1_alg».proof.Proof.Bridges
import proofs.«120182_j55765855371370_1_alg».proof.Proof.EdgeData
import proofs.«120182_j55765855371370_1_alg».proof.Proof.Layer1
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

variable [hK : Cert.KernelIdeal.Facts] [hR : Cert.ReferenceIdeal.Facts]

variable (m : (ℓ : Loc nD τ sig) → Buf (Elt Ideal) ℓ) (ρ : Dev nD → PrngReg)

/-! ## Layer 2 -/

/-- Layer 1's activations, narrowed. -/
theorem x_2 (c : Dev nD) : W5 m ρ c (Proc.devRef .tc main_v47) = (fun i => Cert.ReferenceIdeal.Read.val_main_v46 (F := Ideal) (m ((c : Thread nD τ).loc main_arg0)) (m ((c : Thread nD τ).loc main_arg1)) (m ((c : Thread nD τ).loc main_arg2)) (m ((c : Thread nD τ).loc main_arg3)) i) := by
  show StableHlo.after hostOps2 (W4 m ρ c) (Proc.devRef .tc main_v47) = _
  dsimp only [hostOps2]
  after_results
  rw [act_1 m ρ c]
  exact narrow_id _ _

/-- The second layer's weights, narrowed. -/
theorem w_2 (c : Dev nD) : W5 m ρ c (Proc.devRef .tc main_v48) = (fun i => (m ((c : Thread nD τ).loc main_arg4)) i) := by
  show StableHlo.after hostOps2 (W4 m ρ c) (Proc.devRef .tc main_v48) = _
  dsimp only [hostOps2]
  after_results
  rw [Kept.arg4_4 m ρ c]
  rfl

/-- After region 2: the reference's h of layer 2. -/
theorem h_2 (c : Dev nD) : W6 m ρ c (Proc.devRef .tc main_v49) = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ?_
  refine (Dense2.product_array (V5 m ρ) c).trans ?_
  show Dense2.whole (W5 m ρ c (Proc.devRef .tc main_v47)) (W5 m ρ c (Proc.devRef .tc main_v48)) = _
  rw [x_2 m ρ c, w_2 m ρ c]
  exact (product_2 _ _).trans (by simp only [Cert.ReferenceIdeal.Read.val_main_v47])

set_option maxHeartbeats 8000000 in
/-- The reference's aggregate of layer 2. -/
theorem agg_2 (c : Dev nD) : W7 m ρ c (Proc.devRef .tc main_v62) = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W6 m ρ c) (Proc.devRef .tc main_v62) = _
  dsimp only [hostOps3]
  after_results_simp
  rw [h_2 m ρ c, Kept.src_6 m ρ c, Kept.src_2 m ρ c, src_1 m ρ c, Kept.dst_6 m ρ c, Kept.dst_2 m ρ c, dst_1 m ρ c, Kept.norm_6 m ρ c, Kept.norm_2 m ρ c, norm_1 m ρ c]
  simp only [Cert.ReferenceIdeal.Read.val_main_v60, Cert.ReferenceIdeal.Read.val_main_v59, Cert.ReferenceIdeal.Read.val_main_v58, Cert.ReferenceIdeal.Read.val_main_cst_10, Cert.ReferenceIdeal.Read.val_main_v57, Cert.ReferenceIdeal.Read.val_main_v56, Cert.ReferenceIdeal.Read.val_main_v55, Cert.ReferenceIdeal.Read.val_main_v54, Cert.ReferenceIdeal.Read.val_main_v53, Cert.ReferenceIdeal.Read.val_main_v52, Cert.ReferenceIdeal.Read.val_main_v51, Cert.ReferenceIdeal.Read.val_main_v50, Cert.ReferenceIdeal.Read.val_main_c_9, Cert.ReferenceIdeal.Read.val_main_v49, Cert.ReferenceIdeal.Read.val_main_v48, Cert.ReferenceIdeal.Read.val_main_c_8]
  rfl

/-- The second bias as one row. -/
theorem b_2 (c : Dev nD) : W7 m ρ c (Proc.devRef .tc main_v63) = shapeCast S1x128 (m ((c : Thread nD τ).loc main_arg5)) shapeCasts_S128_S1x128 := by
  show StableHlo.after hostOps3 (W6 m ρ c) (Proc.devRef .tc main_v63) = _
  dsimp only [hostOps3]
  after_results
  rw [Kept.arg5_6 m ρ c]
  rfl

/-- After region 3: the reference's activations of layer 2. -/
theorem act_2 (c : Dev nD) : W8 m ρ c (Proc.devRef .tc main_v64) = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ?_
  refine (Bias2.shifted_array (V7 m ρ) c).trans ?_
  show Bias2.shifted (W7 m ρ c (Proc.devRef .tc main_v62)) (W7 m ρ c (Proc.devRef .tc main_v63)) = _
  rw [agg_2 m ρ c, b_2 m ρ c]
  exact (bias_step_2 _ _).trans (by simp only [Cert.ReferenceIdeal.Read.val_main_v64, Cert.ReferenceIdeal.Read.val_main_v63])

end Cert.KernelIdeal.Stages

end
-- ==== Proof.Layer3.lean ====
/-
  Layer 3, boundary by boundary: the product region leaves the reference's h = X·W of this layer (X layer 2's activations); the next
  stretch gathers h along the edges' sources, scales each message by its edge's factor and sums the messages into
  their destinations with the reference's own operations, applied to equal arrays — the reference's aggregate; the
  bias region leaves the aggregate plus the bias, which is the reference's result.
-/
import proofs.«120182_j55765855371370_1_alg».proof.Proof.Gen.KernelIdeal.Frame
import proofs.«120182_j55765855371370_1_alg».proof.Proof.Gen.ReferenceIdeal.Read
import proofs.«120182_j55765855371370_1_alg».proof.Proof.Kept
import proofs.«120182_j55765855371370_1_alg».proof.Proof.Bridges
import proofs.«120182_j55765855371370_1_alg».proof.Proof.EdgeData
import proofs.«120182_j55765855371370_1_alg».proof.Proof.Layer2
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

variable [hK : Cert.KernelIdeal.Facts] [hR : Cert.ReferenceIdeal.Facts]

variable (m : (ℓ : Loc nD τ sig) → Buf (Elt Ideal) ℓ) (ρ : Dev nD → PrngReg)

/-! ## Layer 3 -/

/-- Layer 2's activations, narrowed. -/
theorem x_3 (c : Dev nD) : W9 m ρ c (Proc.devRef .tc main_v65) = (fun i => Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i) := by
  show StableHlo.after hostOps4 (W8 m ρ c) (Proc.devRef .tc main_v65) = _
  dsimp only [hostOps4]
  after_results
  rw [act_2 m ρ c]
  exact narrow_id _ _

/-- The third layer's weights, narrowed. -/
theorem w_3 (c : Dev nD) : W9 m ρ c (Proc.devRef .tc main_v66) = (fun i => (m ((c : Thread nD τ).loc main_arg6)) i) := by
  show StableHlo.after hostOps4 (W8 m ρ c) (Proc.devRef .tc main_v66) = _
  dsimp only [hostOps4]
  after_results
  rw [Kept.arg6_8 m ρ c]
  rfl

/-- After region 4: the reference's h of layer 3. -/
theorem h_3 (c : Dev nD) : W10 m ρ c (Proc.devRef .tc main_v67) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ?_
  refine (Dense3.product_array (V9 m ρ) c).trans ?_
  show Dense3.whole (W9 m ρ c (Proc.devRef .tc main_v65)) (W9 m ρ c (Proc.devRef .tc main_v66)) = _
  rw [x_3 m ρ c, w_3 m ρ c]
  exact (product_3 _ _).trans (by simp only [Cert.ReferenceIdeal.Read.val_main_v65])

set_option maxHeartbeats 8000000 in
/-- The reference's aggregate of layer 3. -/
theorem agg_3 (c : Dev nD) : W11 m ρ c (Proc.devRef .tc main_v80) = Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W10 m ρ c) (Proc.devRef .tc main_v80) = _
  dsimp only [hostOps5]
  after_results_simp
  rw [h_3 m ρ c, Kept.src_10 m ρ c, Kept.src_6 m ρ c, Kept.src_2 m ρ c, src_1 m ρ c, Kept.dst_10 m ρ c, Kept.dst_6 m ρ c, Kept.dst_2 m ρ c, dst_1 m ρ c, Kept.norm_10 m ρ c, Kept.norm_6 m ρ c, Kept.norm_2 m ρ c, norm_1 m ρ c]
  simp only [Cert.ReferenceIdeal.Read.val_main_v78, Cert.ReferenceIdeal.Read.val_main_v77, Cert.ReferenceIdeal.Read.val_main_v76, Cert.ReferenceIdeal.Read.val_main_cst_13, Cert.ReferenceIdeal.Read.val_main_v75, Cert.ReferenceIdeal.Read.val_main_v74, Cert.ReferenceIdeal.Read.val_main_v73, Cert.ReferenceIdeal.Read.val_main_v72, Cert.ReferenceIdeal.Read.val_main_v71, Cert.ReferenceIdeal.Read.val_main_v70, Cert.ReferenceIdeal.Read.val_main_v69, Cert.ReferenceIdeal.Read.val_main_v68, Cert.ReferenceIdeal.Read.val_main_c_12, Cert.ReferenceIdeal.Read.val_main_v67, Cert.ReferenceIdeal.Read.val_main_v66, Cert.ReferenceIdeal.Read.val_main_c_11]
  rfl

/-- The third bias as one row. -/
theorem b_3 (c : Dev nD) : W11 m ρ c (Proc.devRef .tc main_v81) = shapeCast S1x16 (m ((c : Thread nD τ).loc main_arg7)) shapeCasts_S16_S1x16 := by
  show StableHlo.after hostOps5 (W10 m ρ c) (Proc.devRef .tc main_v81) = _
  dsimp only [hostOps5]
  after_results
  rw [Kept.arg7_10 m ρ c]
  rfl

/-- After region 5, the last boundary: the result buffer holds the reference's result, as a function of the eight
    arguments. -/
theorem result (c : Dev nD) : W12 m ρ c (Proc.devRef .tc main_v82) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ?_
  refine (Bias3.shifted_array (V11 m ρ) c).trans ?_
  show Bias3.shifted (W11 m ρ c (Proc.devRef .tc main_v80)) (W11 m ρ c (Proc.devRef .tc main_v81)) = _
  rw [agg_3 m ρ c, b_3 m ρ c]
  exact (bias_step_3 _ _).trans (by simp only [Cert.ReferenceIdeal.Read.val_main_v81])

end Cert.KernelIdeal.Stages

end
-- ==== Proof.lean ====
/-
  Three graph-convolution layers, kernel against reference, over the extended reals.

  Both programs take node features x (100000×256), an edge list (2×1600000), and per layer a weight matrix and a bias.
  Both append a self-loop to every node, count each node's in-degree d, and give every edge (s → t) the factor
  d(s)^(-1/2)·d(t)^(-1/2). A layer maps node features X to

      out(t, ·) = bias + Σ over edges (s → t) of factor(s → t) · (X·W)(s, ·),

  followed in the first two layers by the maximum with 0. The reference computes X·W as one product and bias, sum and
  maximum as whole-array operations. The kernel computes X·W in ten blocks of 10000 rows from inputs narrowed to bf16,
  leaves the gathering, scaling and summing over edges to the same host operations the reference uses, and adds the
  bias (and takes the maximum) again in ten blocks of 10000 rows.

  At the extended reals narrowing is the identity, every row of a block's product is the same sum over the inner index
  as the corresponding row of the whole product, and adding a one-row bias to a block entry by entry is adding the
  broadcast bias. No sum is regrouped and no factor is moved across a sum, so the equality holds for every input,
  infinite entries included: the finiteness precondition is never opened, and the edge list may hold any integers
  (both programs read it through the same operations).

  The kernel's run is read boundary by boundary (Proof/NamedRun.lean; Proof/EdgeData.lean, Proof/Layer1.lean to Layer3.lean): after the last region the
  result buffer holds the reference's result as a function of the eight arguments. The reference's run and its result
  term are the generated ones. The ideal pass rewrote nothing, so the idealization claim is trivial.
-/
import proofs.«120182_j55765855371370_1_alg».proof.Defs
import proofs.«120182_j55765855371370_1_alg».proof.Proof.Gen.Kernel
import proofs.«120182_j55765855371370_1_alg».proof.Proof.Gen.Kernel.Skeleton
import proofs.«120182_j55765855371370_1_alg».proof.Proof.Gen.Kernel.Launch
import proofs.«120182_j55765855371370_1_alg».proof.Proof.Gen.Kernel.Points
import proofs.«120182_j55765855371370_1_alg».proof.Proof.Gen.Kernel.Frame
import proofs.«120182_j55765855371370_1_alg».proof.Proof.Gen.KernelIdeal
import proofs.«120182_j55765855371370_1_alg».proof.Proof.Gen.KernelIdeal.Skeleton
import proofs.«120182_j55765855371370_1_alg».proof.Proof.Gen.KernelIdeal.Launch
import proofs.«120182_j55765855371370_1_alg».proof.Proof.Gen.KernelIdeal.Points
import proofs.«120182_j55765855371370_1_alg».proof.Proof.Gen.KernelIdeal.Frame
import proofs.«120182_j55765855371370_1_alg».proof.Proof.Gen.ReferenceIdeal
import proofs.«120182_j55765855371370_1_alg».proof.Proof.Gen.Pre_finite_inputs
import proofs.«120182_j55765855371370_1_alg».proof.Proof.Gen.ReferenceIdeal.Read
import proofs.«120182_j55765855371370_1_alg».proof.Proof.NamedRun
import proofs.«120182_j55765855371370_1_alg».proof.Proof.Layer3
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the eight arguments both programs end with the same result array: the reference's own
    result term is the common value, and the kernel's last boundary holds it at the result buffer. -/
theorem algebraic : Cert.algebraic_KernelIdeal_ReferenceIdeal := by
  intro m ρ m' ρ' _ hagree
  refine ⟨fun c => Cert.ReferenceIdeal.Value.res_main_v81 (F := Ideal) m' c, ?_, Cert.ReferenceIdeal.Value.run (F := Ideal) m' ρ'⟩
  refine (θ_run Cert.KernelIdeal.defs _ _).mono (fun r h c => ⟨(h c).1.trans ?_, (h c).2⟩)
    (Cert.KernelIdeal.NamedRun.run (F := Ideal) m ρ)
  rw [Cert.KernelIdeal.Stages.result m ρ c]
  show _ = Cert.ReferenceIdeal.Value.res_main_v81 (F := Ideal) m' c
  rw [Cert.ReferenceIdeal.Read.val_main_v81_eq m' c,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
